-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S131072 : Shape := ⟨1, ![131072]⟩
abbrev S64x256 : Shape := ⟨2, ![64, 256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_

variable [Facts]

def fn {F : FTy → Type} [FloatOps F] (main_arg0 : FVec F S131072x256 .f32) (main_arg1 : IVec S131072 1) (main_arg2 : FVec F S64x256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S64x256 .f32 := Host.absf main_arg2
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  main_v8
-- ==== Kernel.lean ====
abbrev S131072x256 : Shape := ⟨2, ![131072, 256]⟩
abbrev S131072 : Shape := ⟨1, ![131072]⟩
abbrev S64x256 : Shape := ⟨2, ![64, 256]⟩
abbrev S131072x1 : Shape := ⟨2, ![131072, 1]⟩
abbrev S131072x64 : Shape := ⟨2, ![131072, 64]⟩
abbrev S2048x256 : Shape := ⟨2, ![2048, 256]⟩
abbrev S2048x1 : Shape := ⟨2, ![2048, 1]⟩
abbrev S2048x64 : Shape := ⟨2, ![2048, 64]⟩
abbrev S2048 : Shape := ⟨1, ![2048]⟩
abbrev S64 : Shape := ⟨1, ![64]⟩
abbrev S1x64 : Shape := ⟨2, ![1, 64]⟩
abbrev S256x64 : Shape := ⟨2, ![256, 64]⟩

abbrev nBuf : Space → Nat
  | .hbm => 6
  | .vmem => 7
  | .smem => 0
  | _ => 0

abbrev bufTy : (tb : Table) → Fin (tcTables nBuf tb) → BufTy
  | .hbm, ⟨0, _⟩ => ⟨S131072x256, .f32⟩
  | .hbm, ⟨1, _⟩ => ⟨S131072, .i1⟩
  | .hbm, ⟨2, _⟩ => ⟨S64x256, .f32⟩
  | .hbm, ⟨3, _⟩ => ⟨S131072, .f32⟩
  | .hbm, ⟨4, _⟩ => ⟨S131072x1, .f32⟩
  | .hbm, ⟨5, _⟩ => ⟨S131072x64, .f32⟩
  | .local _ .vmem, ⟨0, _⟩ => ⟨S2048x256, .f32⟩
  | .local _ .vmem, ⟨1, _⟩ => ⟨S2048x256, .f32⟩
  | .local _ .vmem, ⟨2, _⟩ => ⟨S64x256, .f32⟩
  | .local _ .vmem, ⟨3, _⟩ => ⟨S2048x1, .f32⟩
  | .local _ .vmem, ⟨4, _⟩ => ⟨S2048x1, .f32⟩
  | .local _ .vmem, ⟨5, _⟩ => ⟨S2048x64, .f32⟩
  | .local _ .vmem, ⟨6, _⟩ => ⟨S2048x64, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S131072_S131072x1 : S131072.ShapeCasts S131072x1
  inb_S2048x256_S2048x256_0_0 : ∀ a, (![0, 0] : Fin 2 → Nat) a + S2048x256.size a ≤ S2048x256.size a
  h_S2048x256 : 0 < S2048x256.numel
  inb_S64x256_S64x256_0_0 : ∀ a, (![0, 0] : Fin 2 → Nat) a + S64x256.size a ≤ S64x256.size a
  h_S64x256 : 0 < S64x256.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  reduces_S2048x256_S2048 : S2048x256.Reduces [1] S2048
  shapeCasts_S2048_S2048x1 : S2048.ShapeCasts S2048x1
  reduces_S64x256_S64 : S64x256.Reduces [1] S64
  shapeCasts_S64_S1x64 : S64.ShapeCasts S1x64
  bitsLt_bf16_f32 : FTy.bits .bf16 < FTy.bits .f32
  transposes_S64x256_p1_0_S256x64 : S64x256.Transposes [1, 0] S256x64
  broadcasts_S2048x1_S2048x64 : S2048x1.Broadcasts S2048x64
  broadcasts_S1x64_S2048x64 : S1x64.Broadcasts S2048x64
  iota_S2048x64_d1_w32 : S2048x64.Iotas .tc 32 [1]
  inb_S2048x64_S2048x64_0_0 : ∀ a, (![0, 0] : Fin 2 → Nat) a + S2048x64.size a ≤ S2048x64.size a
  h_S2048x64 : 0 < S2048x64.numel
  dot_S2048x256_S256x64_S2048x64_1_0_0_1_n_n_wf : DotDims.WF S2048x256 S256x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S131072x256.size a
  hwx0_0 : ∀ i : grid0.Coords, EltTy.bits .f32 = 32 ∨ (Rect.block (s := S131072x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S131072x1.size a
  hwx0_2 : ∀ i : grid0.Coords, EltTy.bits .f32 = 32 ∨ (Rect.block (s := S131072x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S131072x64.size a
  hwx0_3 : ∀ i : grid0.Coords, EltTy.bits .f32 = 32 ∨ (Rect.block (s := S131072x64) S2048x64.size (cc0_transform_3 i) (hinb0_3 i)).WholeWords (EltTy.packing .f32)

variable [Facts₀]

def dot_S2048x256_S256x64_S2048x64_1_0_0_1_n_n : DotDims S2048x256 S256x64 S2048x64 where
  lhsContracting := [1]
  rhsContracting := [0]
  lhsNonContracting := [0]
  rhsNonContracting := [1]
  lhsBatch := []
  rhsBatch := []
  wf := dot_S2048x256_S256x64_S2048x64_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x256 : Shape := ⟨2, ![131072, 256]⟩
abbrev S131072 : Shape := ⟨1, ![131072]⟩
abbrev S64x256 : Shape := ⟨2, ![64, 256]⟩
abbrev S_ : Shape := ⟨0, ![]⟩
abbrev S131072x1 : Shape := ⟨2, ![131072, 1]⟩
abbrev S64 : Shape := ⟨1, ![64]⟩
abbrev S131072x64 : Shape := ⟨2, ![131072, 64]⟩
abbrev S1x64 : Shape := ⟨2, ![1, 64]⟩

abbrev nBuf : Space → Nat
  | .hbm => 38
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S131072, .i1⟩
  | .hbm, ⟨2, _⟩ => ⟨S64x256, .f32⟩
  | .hbm, ⟨3, _⟩ => ⟨S131072x256, .f32⟩
  | .hbm, ⟨4, _⟩ => ⟨S_, .f32⟩
  | .hbm, ⟨5, _⟩ => ⟨S131072, .f32⟩
  | .hbm, ⟨6, _⟩ => ⟨S131072x1, .f32⟩
  | .hbm, ⟨7, _⟩ => ⟨S64x256, .f32⟩
  | .hbm, ⟨8, _⟩ => ⟨S_, .f32⟩
  | .hbm, ⟨9, _⟩ => ⟨S64, .f32⟩
  | .hbm, ⟨10, _⟩ => ⟨S131072x64, .f32⟩
  | .hbm, ⟨11, _⟩ => ⟨S1x64, .f32⟩
  | .hbm, ⟨12, _⟩ => ⟨S131072x64, .f32⟩
  | .hbm, ⟨13, _⟩ => ⟨S131072x64, .f32⟩
  | .hbm, ⟨14, _⟩ => ⟨S131072x64, .f32⟩
  | .hbm, ⟨15, _⟩ => ⟨S_, .f32⟩
  | .hbm, ⟨16, _⟩ => ⟨S131072x64, .f32⟩
  | .hbm, ⟨17, _⟩ => ⟨S131072x64, .f32⟩
  | .hbm, ⟨18, _⟩ => ⟨S131072x64, .f32⟩
  | .hbm, ⟨19, _⟩ => ⟨S131072x64, .f32⟩
  | .hbm, ⟨20, _⟩ => ⟨S131072x64, .f32⟩
  | .hbm, ⟨21, _⟩ => ⟨S64, .i32⟩
  | .hbm, ⟨22, _⟩ => ⟨S_, .i32⟩
  | .hbm, ⟨23, _⟩ => ⟨S64, .i32⟩
  | .hbm, ⟨24, _⟩ => ⟨S64, .i1⟩
  | .hbm, ⟨25, _⟩ => ⟨S64, .f32⟩
  | .hbm, ⟨26, _⟩ => ⟨S_, .i32⟩
  | .hbm, ⟨27, _⟩ => ⟨S64, .i32⟩
  | .hbm, ⟨28, _⟩ => ⟨S64, .i1⟩
  | .hbm, ⟨29, _⟩ => ⟨S64, .f32⟩
  | .hbm, ⟨30, _⟩ => ⟨S131072x1, .i1⟩
  | .hbm, ⟨31, _⟩ => ⟨S1x64, .f32⟩
  | .hbm, ⟨32, _⟩ => ⟨S1x64, .f32⟩
  | .hbm, ⟨33, _⟩ => ⟨S131072x64, .i1⟩
  | .hbm, ⟨34, _⟩ => ⟨S131072x64, .f32⟩
  | .hbm, ⟨35, _⟩ => ⟨S131072x64, .f32⟩
  | .hbm, ⟨36, _⟩ => ⟨S131072x64, .f32⟩
  | .hbm, ⟨37, _⟩ => ⟨S131072x64, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  reducesTo_S131072x256_S131072_d1 : S131072x256.ReducesTo [1] S131072
  h_S_ : 0 < S_.numel
  bcast_S131072_S131072x1_0 : S131072.BroadcastsInDim S131072x1 (![0] : Fin 1 → Fin S131072x1.rank)
  reducesTo_S64x256_S64_d1 : S64x256.ReducesTo [1] S64
  bcast_S64_S1x64_1 : S64.BroadcastsInDim S1x64 (![1] : Fin 1 → Fin S1x64.rank)
  bcast_S131072x1_S131072x64_0_1 : S131072x1.BroadcastsInDim S131072x64 (![0, 1] : Fin 2 → Fin S131072x64.rank)
  bcast_S1x64_S131072x64_0_1 : S1x64.BroadcastsInDim S131072x64 (![0, 1] : Fin 2 → Fin S131072x64.rank)
  bcast_S_S131072x64 : S_.BroadcastsInDim S131072x64 (![] : Fin 0 → Fin S131072x64.rank)
  bcast_S_S64 : S_.BroadcastsInDim S64 (![] : Fin 0 → Fin S64.rank)
  dot_S131072x256_S64x256_S131072x64_1_1_0_0_n_n_wf : DotDims.WF S131072x256 S64x256 S131072x64 [1] [1] [0] [0] [] []

variable [Facts₀]

def dot_S131072x256_S64x256_S131072x64_1_1_0_0_n_n : DotDims S131072x256 S64x256 S131072x64 where
  lhsContracting := [1]
  rhsContracting := [1]
  lhsNonContracting := [0]
  rhsNonContracting := [0]
  lhsBatch := []
  rhsBatch := []
  wf := dot_S131072x256_S64x256_S131072x64_1_1_0_0_n_n_wf

class Facts : Prop extends Facts₀ where

variable [Facts]
-- ==== Proof.Spec.lean ====
/-
  The function both programs compute, index by index, on the extended reals.

  For a row `b` of `X` (131072 × 256) and a prototype `q` (a row of `P`, 64 × 256):
    d(b, q)   = (Σₖ X[b,k]² + Σₖ P[q,k]²) − 2 · Σₖ X[b,k] · P[q,k]      (the squared distance, expanded)
    out(b, q) = exp(−d(b, q)) · gate(T[b], q)
  where the gate is 1 exactly when the row's flag `T[b]` and "q is among the first sixteen prototypes" agree,
  and 0 otherwise: flagged rows see prototypes 0..15, the others see prototypes 16..63.

  One side forms the gate by arithmetic on the flag read as a number, t·a + (1 − t)·(1 − a) with a ∈ {0, 1};
  the other selects between the indicator of the first sixteen and the indicator of the rest. Both are the
  gate, by the four cases of (flag, a); every number involved is 0 or 1, so no infinity is met.
-/
import Idealize.ShloMosaic.PureOps.Ideal
import Idealize.ShloMosaic.Lib.ValueIdx
import Idealize.ShloMosaic.Lib.IdealHost

noncomputable section

open scoped BigOperators

namespace Cert.ProtoSim

open Idealize.ShloMosaic Idealize.ShloMosaic.ValueIdx

/-- The expanded squared distance between row `b` of `X` and row `q` of `P`; the factor two is kept as the
    word both programs write. Stated for any number of rows of `X`, so that it speaks of a block of rows as well as of
    the whole array. -/
def sqDist {n : ℕ} (X : (⟨2, ![n, 256]⟩ : Shape).Idx → EReal) (P : (⟨2, ![64, 256]⟩ : Shape).Idx → EReal)
    (b : Fin n) (q : Fin 64) : EReal :=
  ((∑ k : Fin 256, X (ix2 b k) * X (ix2 b k)) + ∑ k : Fin 256, P (ix2 q k) * P (ix2 q k))
    - Ideal.ofBits .f32 0x40000000#32 * ∑ k : Fin 256, X (ix2 b k) * P (ix2 q k)

/-- The distance depends only on the one row of `X` and the one row of `P` it names: arrays that agree on those rows
    give the same value. -/
theorem sqDist_congr {n n' : ℕ} (X : (⟨2, ![n, 256]⟩ : Shape).Idx → EReal) (X' : (⟨2, ![n', 256]⟩ : Shape).Idx → EReal)
    (P P' : (⟨2, ![64, 256]⟩ : Shape).Idx → EReal) (b : Fin n) (b' : Fin n') (q : Fin 64)
    (hX : ∀ k : Fin 256, X (ix2 b k) = X' (ix2 b' k)) (hP : ∀ k : Fin 256, P (ix2 q k) = P' (ix2 q k)) :
    sqDist X P b q = sqDist X' P' b' q := by
  unfold sqDist
  simp only [hX, hP]

/-- The gate: 1 when the flag and "q < 16" agree, else 0. -/
def gate (t : BitVec 1) (q : Fin 64) : EReal :=
  if t = 1#1 then (if q.val < 16 then 1 else 0) else (if q.val < 16 then 0 else 1)

/-- The result at row `b`, prototype `q`. -/
def entry (X : (⟨2, ![131072, 256]⟩ : Shape).Idx → EReal) (T : (⟨1, ![131072]⟩ : Shape).Idx → BitVec 1)
    (P : (⟨2, ![64, 256]⟩ : Shape).Idx → EReal) (b : Fin 131072) (q : Fin 64) : EReal :=
  Ideal.exp (-(sqDist X P b q)) * gate (T (ix1 b)) q

/-- The whole result array. -/
def result (X : (⟨2, ![131072, 256]⟩ : Shape).Idx → EReal) (T : (⟨1, ![131072]⟩ : Shape).Idx → BitVec 1)
    (P : (⟨2, ![64, 256]⟩ : Shape).Idx → EReal) : (⟨2, ![131072, 64]⟩ : Shape).Idx → EReal :=
  fun i => entry X T P (i 0) (i 1)

theorem result_ix2 (X : (⟨2, ![131072, 256]⟩ : Shape).Idx → EReal) (T : (⟨1, ![131072]⟩ : Shape).Idx → BitVec 1)
    (P : (⟨2, ![64, 256]⟩ : Shape).Idx → EReal) (b : Fin 131072) (q : Fin 64) :
    result X T P (ix2 b q) = entry X T P b q := rfl

/-! ## The gate, from either spelling -/

/-- A one-bit flag read as a number: 0 or 1. -/
def flagVal (t : BitVec 1) : EReal := ((t.toNat : ℝ) : EReal)

theorem flagVal_one : flagVal 1#1 = 1 := by simp [flagVal]
theorem flagVal_zero : flagVal 0#1 = 0 := by simp [flagVal]

/-- "Prototype `q` is among the first sixteen", as the signed comparison of 32-bit words both programs make. -/
theorem lt16_bit : ∀ q : Fin 64, IntOp.cmpi .slt (BitVec.ofNat 32 q.val) 16#32 = if q.val < 16 then 1#1 else 0#1 := by
  decide

/-- "Prototype `q` is among the rest": the complementary comparison. -/
theorem ge16_bit : ∀ q : Fin 64, IntOp.cmpi .sge (BitVec.ofNat 32 q.val) 16#32 = if q.val < 16 then 0#1 else 1#1 := by
  decide

theorem one_sub_one : (1 : EReal) - 1 = 0 := by
  rw [← EReal.coe_one, ← EReal.coe_sub, sub_self, EReal.coe_zero]

/-- The arithmetic gate: with `a` the 0/1 indicator of the first sixteen (a select between the words of 1.0 and
    0.0), `t·a + (1 − t)·(1 − a)` is the gate. -/
theorem gate_of_arith (t : BitVec 1) (q : Fin 64) :
    flagVal t * Scalar.select (IntOp.cmpi .slt (BitVec.ofNat 32 q.val) 16#32)
        (Ideal.ofBits .f32 0x3F800000#32) (Ideal.ofBits .f32 0x00000000#32)
      + (Ideal.ofBits .f32 0x3F800000#32 - flagVal t)
        * (Ideal.ofBits .f32 0x3F800000#32 - Scalar.select (IntOp.cmpi .slt (BitVec.ofNat 32 q.val) 16#32)
            (Ideal.ofBits .f32 0x3F800000#32) (Ideal.ofBits .f32 0x00000000#32))
      = gate t q := by
  rw [lt16_bit q, Ideal.ofBits_one_f32, Ideal.ofBits_zero_f32]
  unfold gate
  rcases BitVec.eq_zero_or_eq_one t with h | h <;> subst h <;> by_cases hq : q.val < 16
  · simp [hq, Scalar.select, flagVal_zero, one_sub_one]
  · simp [hq, Scalar.select, flagVal_zero]
  · simp [hq, Scalar.select, flagVal_one, one_sub_one]
  · simp [hq, Scalar.select, flagVal_one, one_sub_one]

/-- The selecting gate: the flag chooses between the indicator of the first sixteen and the indicator of the rest,
    each a comparison bit read as a number. -/
theorem gate_of_select (t : BitVec 1) (q : Fin 64) :
    Scalar.select t (flagVal (IntOp.cmpi .slt (BitVec.ofNat 32 q.val) 16#32))
      (flagVal (IntOp.cmpi .sge (BitVec.ofNat 32 q.val) 16#32)) = gate t q := by
  rw [lt16_bit q, ge16_bit q]
  unfold gate
  rcases BitVec.eq_zero_or_eq_one t with h | h <;> subst h <;> by_cases hq : q.val < 16
  · simp [hq, Scalar.select, flagVal_zero, flagVal_one]
  · simp [hq, Scalar.select, flagVal_zero, flagVal_one]
  · simp [hq, Scalar.select, flagVal_zero, flagVal_one]
  · simp [hq, Scalar.select, flagVal_zero, flagVal_one]

end Cert.ProtoSim

end
-- ==== Proof.LibKeepdimsCol.lean ====
/-
  Two layout operations read at an index given by coordinates, for any element type and any extents:
  the shape cast that appends a unit axis to a vector, and the broadcast of a one-column matrix along its rows.
  Together they are what a row statistic kept as a column (a sum over the last axis with the axis kept)
  looks like when it is spread back over a matrix.
-/
import Idealize.ShloMosaic.Lib.ValueLayout

namespace Cert.LibKeepdimsCol

open Idealize.ShloMosaic Idealize.ShloMosaic.ValueIdx

variable {α : Type}

/-- A vector of length `a` cast to an `a × 1` column reads, at `(i, u)`, the vector at `i`: both sit at
    row-major position `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdimsCol
-- ==== Proof.Payload.lean ====
/-
  The kernel body's stored value, read at row `r` and prototype `q` of a block.

  The body holds a block `x` of 2048 rows of `X`, the whole of `P`, and the block's flags as a column `f` of numbers.
  It forms the two row statistics (sums of squares over the 256 columns, kept as a column for `x` and as a row for `P`),
  the products `x · Pᵀ` by a matrix product into a zero accumulator (the narrowing of the operands is the identity on
  the extended reals), and stores
      exp(0 − ((Σₖ x[r,k]² + Σₖ P[q,k]²) − 2 · Σₖ x[r,k]·P[q,k])) · (f[r]·a + (1 − f[r])·(1 − a)),   a = [q < 16].
  Each layout step reads one entry of its operand: a column broadcast reads row `r`, a row broadcast reads column `q`,
  the transposed `P` at `(k, q)` is `P` at `(q, k)`; each reduction is the exact sum over the 256 columns.
-/
import proofs.«106129_j88596585382464_2_alg».proof.Proof.Gen.KernelIdeal.Skeleton
import proofs.«106129_j88596585382464_2_alg».proof.Proof.Spec
import proofs.«106129_j88596585382464_2_alg».proof.Proof.LibKeepdimsCol
import Idealize.ShloMosaic.PureOps.Ideal.Laws
import Idealize.ShloMosaic.Lib.ValueLayout

noncomputable section

open scoped BigOperators

namespace Cert.ProtoSim.Ker

open Cert.KernelIdeal Cert.KernelIdeal.Gen Cert.LibKeepdimsCol Idealize.ShloMosaic Idealize.ShloMosaic.ValueIdx

/-- The 0/1 indicator of the first sixteen prototypes, as the body builds it: a select between the words of 1.0 and 0.0
    on the signed comparison of the column number with 16. -/
def firstSixteen (q : Fin 64) : EReal :=
  Scalar.select (IntOp.cmpi .slt (BitVec.ofNat 32 q.val) 16#32) (Ideal.ofBits .f32 0x3F800000#32)
    (Ideal.ofBits .f32 0x00000000#32)

/-- Row sums of a 2048 × 256 array, kept as a column and spread over 64 columns: at `(r, q)` the sum of row `r`. -/
theorem rowSum_spread (x : FVec Ideal S2048x256 .f32) (hφ : FKind.Formats .f32)
    (hacc : (0x00000000#32 : BitVec 32) = 0x00000000#32) (r : Fin 2048) (q : Fin 64) :
    broadcastTo S2048x64 (shapeCast S2048x1 (multiReduction .add [1] S2048 x 0x00000000#32 reduces_S2048x256_S2048 hφ hacc)
      shapeCasts_S2048_S2048x1) broadcasts_S2048x1_S2048x64 (ix2 r q) = ∑ k : Fin 256, x (ix2 r k) :=
  (broadcastTo_a1_ab_apply _ broadcasts_S2048x1_S2048x64 r q).trans
    ((shapeCast_a_a1_apply _ shapeCasts_S2048_S2048x1 r 0).trans
      ((Ideal.multiReduction_add_single x 0x00000000#32 reduces_S2048x256_S2048 hφ hacc (ix1 r)).trans
        (Finset.sum_congr rfl fun k _ => congrArg x (funext fun a => Fin.ext (by
          match a with | ⟨0, _⟩ => rfl | ⟨1, _⟩ => rfl)))))

/-- Row sums of a 64 × 256 array, laid as a row and spread over 2048 rows: at `(r, q)` the sum of row `q`. -/
theorem protoSum_spread (x : FVec Ideal S64x256 .f32) (hφ : FKind.Formats .f32)
    (hacc : (0x00000000#32 : BitVec 32) = 0x00000000#32) (r : Fin 2048) (q : Fin 64) :
    broadcastTo S2048x64 (shapeCast S1x64 (multiReduction .add [1] S64 x 0x00000000#32 reduces_S64x256_S64 hφ hacc)
      shapeCasts_S64_S1x64) broadcasts_S1x64_S2048x64 (ix2 r q) = ∑ k : Fin 256, x (ix2 q k) :=
  (broadcastTo_1b_ab_apply _ broadcasts_S1x64_S2048x64 r q).trans
    ((shapeCast_a_1a_apply _ shapeCasts_S64_S1x64 0 q).trans
      ((Ideal.multiReduction_add_single x 0x00000000#32 reduces_S64x256_S64 hφ hacc (ix1 q)).trans
        (Finset.sum_congr rfl fun k _ => congrArg x (funext fun a => Fin.ext (by
          match a with | ⟨0, _⟩ => rfl | ⟨1, _⟩ => rfl)))))

/-- A 2048 × 1 column spread over 64 columns reads row `r` of the column (the cast to its own shape is the identity). -/
theorem col_spread (v : FVec Ideal S2048x1 .f32) (r : Fin 2048) (q : Fin 64) :
    broadcastTo S2048x64 (shapeCast S2048x1 v shapeCasts_S2048x1_S2048x1) broadcasts_S2048x1_S2048x64 (ix2 r q)
      = v (ix2 r (0 : Fin 1)) := by
  rw [shapeCast_self]
  exact broadcastTo_a1_ab_apply v broadcasts_S2048x1_S2048x64 r q

/-- The column `c − v`, spread likewise. -/
theorem const_sub_col_spread (c : EReal) (v : FVec Ideal S2048x1 .f32) (r : Fin 2048) (q : Fin 64) :
    broadcastTo S2048x64 (subf (broadcast S2048x1 c) (shapeCast S2048x1 v shapeCasts_S2048x1_S2048x1))
      broadcasts_S2048x1_S2048x64 (ix2 r q) = c - v (ix2 r (0 : Fin 1)) := by
  rw [shapeCast_self]
  exact broadcastTo_a1_ab_apply _ broadcasts_S2048x1_S2048x64 r q

/-- The column number along axis 1 at `(r, q)` is `q`. -/
theorem colNumber (r : Fin 2048) (q : Fin 64) :
    iota .tc S2048x64 32 [1] iota_S2048x64_d1_w32 (ix2 r q) = BitVec.ofNat 32 q.val :=
  iota_single_apply .tc S2048x64 32 1 iota_S2048x64_d1_w32 (ix2 r q)

theorem lhs_row (j : S2048x64.Idx) (p : dot_S2048x256_S256x64_S2048x64_1_0_0_1_n_n.contr.Idx) :
    (dot_S2048x256_S256x64_S2048x64_1_0_0_1_n_n.lhsIdx j p 0).val = (j 0).val := by
  unfold DotDims.lhsIdx
  rw [dif_neg (show ¬(0 : Fin S2048x256.rank) ∈ dot_S2048x256_S256x64_S2048x64_1_0_0_1_n_n.lhsBatch by decide),
    dif_pos (show (0 : Fin S2048x256.rank) ∈ dot_S2048x256_S256x64_S2048x64_1_0_0_1_n_n.lhsNonContracting by decide)]
  rfl
theorem lhs_col (j : S2048x64.Idx) (p : dot_S2048x256_S256x64_S2048x64_1_0_0_1_n_n.contr.Idx) :
    (dot_S2048x256_S256x64_S2048x64_1_0_0_1_n_n.lhsIdx j p 1).val = (p ⟨0, by decide⟩).val :=
  dot_S2048x256_S256x64_S2048x64_1_0_0_1_n_n.lhsIdx_val_of_single rfl j p
theorem rhs_row (j : S2048x64.Idx) (p : dot_S2048x256_S256x64_S2048x64_1_0_0_1_n_n.contr.Idx) :
    (dot_S2048x256_S256x64_S2048x64_1_0_0_1_n_n.rhsIdx j p 0).val = (p ⟨0, by decide⟩).val :=
  dot_S2048x256_S256x64_S2048x64_1_0_0_1_n_n.rhsIdx_val_of_single rfl j p
theorem rhs_col (j : S2048x64.Idx) (p : dot_S2048x256_S256x64_S2048x64_1_0_0_1_n_n.contr.Idx) :
    (dot_S2048x256_S256x64_S2048x64_1_0_0_1_n_n.rhsIdx j p 1).val = (j 1).val := by
  unfold DotDims.rhsIdx
  rw [dif_neg (show ¬(1 : Fin S256x64.rank) ∈ dot_S2048x256_S256x64_S2048x64_1_0_0_1_n_n.rhsBatch by decide),
    dif_pos (show (1 : Fin S256x64.rank) ∈ dot_S2048x256_S256x64_S2048x64_1_0_0_1_n_n.rhsNonContracting by decide)]
  rfl

/-- The matrix product of the block with the transposed prototypes, into a zero accumulator: at `(r, q)` the sum over
    the 256 columns of `x[r,k] · P[q,k]`. -/
theorem product_apply (x : FVec Ideal S2048x256 .f32) (p : FVec Ideal S64x256 .f32) (r : Fin 2048) (q : Fin 64) :
    matmul dot_S2048x256_S256x64_S2048x64_1_0_0_1_n_n none (truncf .bf16 x bitsLt_bf16_f32)
      (transpose S256x64 [1, 0] (truncf .bf16 p bitsLt_bf16_f32) transposes_S64x256_p1_0_S256x64)
      (constant S2048x64 .f32 0x00000000#32) (ix2 r q) = ∑ k : Fin 256, x (ix2 r k) * p (ix2 q k) := by
  simp only [matmul]
  rw [Ideal.matmul_constant_zero_apply,
    ← Equiv.sum_comp (contrEquiv1 dot_S2048x256_S256x64_S2048x64_1_0_0_1_n_n 256 rfl rfl).symm]
  refine Finset.sum_congr rfl fun k _ => ?_
  have hk := contrEquiv1_symm_val dot_S2048x256_S256x64_S2048x64_1_0_0_1_n_n 256 rfl rfl k
  have el : dot_S2048x256_S256x64_S2048x64_1_0_0_1_n_n.lhsIdx (ix2 r q)
      ((contrEquiv1 dot_S2048x256_S256x64_S2048x64_1_0_0_1_n_n 256 rfl rfl).symm k) = ix2 r k :=
    funext fun a => Fin.ext (by
      match a with
      | ⟨0, _⟩ => exact lhs_row _ _
      | ⟨1, _⟩ => exact (lhs_col _ _).trans hk)
  have er : dot_S2048x256_S256x64_S2048x64_1_0_0_1_n_n.rhsIdx (ix2 r q)
      ((contrEquiv1 dot_S2048x256_S256x64_S2048x64_1_0_0_1_n_n 256 rfl rfl).symm k) = ix2 k q :=
    funext fun a => Fin.ext (by
      match a with
      | ⟨0, _⟩ => exact (rhs_row _ _).trans hk
      | ⟨1, _⟩ => exact rhs_col _ _)
  rw [el, er, transpose_ix2_apply]
  rfl

/-- THE STORED VALUE at `(r, q)`: the exponential of minus the squared distance between row `r` of the block and
    prototype `q`, times the arithmetic gate of the row's flag value. -/
theorem pay_apply (v0 : Vec Ideal S2048x256 .f32) (v1 : Vec Ideal S64x256 .f32) (v2 : Vec Ideal S2048x1 .f32)
    (r : Fin 2048) (q : Fin 64) :
    k0_pay1 (F := Ideal) v0 v1 v2 (ix2 r q)
      = Ideal.exp (-(sqDist v0 v1 r q))
        * (v2 (ix2 r (0 : Fin 1)) * firstSixteen q
          + (Ideal.ofBits .f32 0x3F800000#32 - v2 (ix2 r (0 : Fin 1))) * (Ideal.ofBits .f32 0x3F800000#32 - firstSixteen q)) := by
  unfold k0_pay1
  simp only [mulf_apply, addf_apply, subf_apply, exp, select_apply, broadcast_apply, cmpi]
  rw [rowSum_spread, protoSum_spread, product_apply, col_spread, const_sub_col_spread, colNumber]
  simp only [mulf_apply, Ideal.ofBits_def, Ideal.exp_def, Ideal.ofBits_zero_f32, zero_sub]
  unfold firstSixteen sqDist
  rw [Ideal.ofBits_zero_f32]

/-- So, when the block's row `r` is row `b` of `X`, the second operand agrees with `P` on row `q`, and the flag column
    holds at `r` the value of the flag `T[b]`, the stored value is the specification's entry at `(b, q)`: the arithmetic
    gate of a 0/1 flag value is the gate. -/
theorem pay_entry (v0 : Vec Ideal S2048x256 .f32) (v1 : Vec Ideal S64x256 .f32) (v2 : Vec Ideal S2048x1 .f32)
    (X : (⟨2, ![131072, 256]⟩ : Shape).Idx → EReal) (T : (⟨1, ![131072]⟩ : Shape).Idx → BitVec 1)
    (P : (⟨2, ![64, 256]⟩ : Shape).Idx → EReal) (r : Fin 2048) (q : Fin 64) (b : Fin 131072)
    (h0 : ∀ k : Fin 256, v0 (ix2 r k) = X (ix2 b k)) (h1 : ∀ k : Fin 256, v1 (ix2 q k) = P (ix2 q k))
    (h2 : v2 (ix2 r (0 : Fin 1)) = flagVal (T (ix1 b))) :
    k0_pay1 (F := Ideal) v0 v1 v2 (ix2 r q) = entry X T P b q := by
  rw [pay_apply, h2, sqDist_congr v0 X v1 P r b q h0 h1]
  unfold firstSixteen entry
  rw [gate_of_arith]

end Cert.ProtoSim.Ker

end
-- ==== Proof.HostGlue.lean ====
/-
  The flag column the kernel's third operand stages.

  Before the region the flags `T` (one bit per row) are converted to numbers and the vector of 131072 numbers is
  reshaped to a 131072 × 1 column. So the column, read at `(b, 0)`, is the value (0 or 1) of the flag `T[b]`.
-/
import proofs.«106129_j88596585382464_2_alg».proof.Proof.Gen.KernelIdeal.Frame
import proofs.«106129_j88596585382464_2_alg».proof.Proof.Spec
import proofs.«106129_j88596585382464_2_alg».proof.Proof.LibKeepdimsCol
import Idealize.ShloMosaic.Lib.StableHlo.Run

noncomputable section

namespace Cert.ProtoSim.Glue

open Cert.KernelIdeal Cert.KernelIdeal.Gen Cert.LibKeepdimsCol Idealize.ShloMosaic Idealize.ShloMosaic.TcCoe
open Idealize.ShloMosaic.ValueIdx Idealize.SL.Sem Idealize.ShloMosaic.StableHlo

variable (m : (ℓ : Loc nD τ sig) → Buf (Elt Ideal) ℓ)

/-- The column as the region finds it: the flags converted to numbers, recast from a vector to a column. -/
theorem flags_array (c : Dev nD) :
    (V m c main_v1 : S131072x1.Idx → EReal)
      = shapeCast S131072x1 (uitofp (F := Ideal) .f32 (m ((c : Thread nD τ).loc main_arg1))) shapeCasts_S131072_S131072x1 := by
  dsimp only [Gen.V, Gen.hostOps0]
  after_results
  rfl

/-- Read at row `b`: the value of the flag `T[b]`. -/
theorem flag_at (c : Dev nD) (b : Fin 131072) :
    (V m c main_v1 : S131072x1.Idx → EReal) (ix2 b (0 : Fin 1)) = flagVal (m ((c : Thread nD τ).loc main_arg1) (ix1 b)) :=
  (congrFun (flags_array m c) (ix2 b (0 : Fin 1))).trans
    ((shapeCast_a_a1_apply _ shapeCasts_S131072_S131072x1 b (0 : Fin 1)).trans rfl)

end Cert.ProtoSim.Glue

end
-- ==== Proof.KernelValue.lean ====
/-
  From blocks to the array: after the kernel's run the result array is the specification's result.

  The grid has 64 points; point `t` stages rows `2048·t … 2048·t + 2047` of `X` and of the flag column, the whole of `P`,
  and writes back rows `2048·t … 2048·t + 2047` of the result. So row `r` of point `t`'s blocks is row `2048·t + r`
  of the arrays, what point `t` writes back is block `t` of the specification's result, and since the 64 blocks of
  2048 rows tile the 131072 rows (row `i` lies in block `i / 2048`), the array ends holding the result everywhere.
-/
import proofs.«106129_j88596585382464_2_alg».proof.Proof.Gen.KernelIdeal.Value
import proofs.«106129_j88596585382464_2_alg».proof.Proof.Payload
import proofs.«106129_j88596585382464_2_alg».proof.Proof.HostGlue

noncomputable section

namespace Cert.ProtoSim.KerValue

open Cert.KernelIdeal Cert.KernelIdeal.Gen Cert.ProtoSim.Ker Cert.ProtoSim.Glue
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zero_off : (![0, 0] : Fin 2 → Nat) = fun _ => 0 := funext fun a => by fin_cases a <;> rfl

/-- The four index maps, decided over the 64 points: the three row-blocked windows sit at block `(t, 0)`, the
    prototypes' window always at block `(0, 0)`. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 64 := by
  have h := t.isLt
  have hN : cfg0.N = 64 := N_0
  omega

/-- Row `2048·t + r` is a row of the arrays. -/
theorem row_lt (t : Fin cfg0.N) (r : Fin 2048) : t.val * 2048 + r.val < 131072 := by
  have := point_lt t
  have := r.isLt
  omega

/-- Row `r`, column `k` of point `t`'s block of `X` is `X` at row `2048·t + r`, column `k`. -/
theorem read_X (c : Dev nD) (t : Fin cfg0.N) (r : Fin 2048) (k : Fin 256) :
    iblk m c 0 t (ix2 r k) = m ((c : Thread nD τ).loc main_arg0) (ix2 ⟨t.val * 2048 + r.val, row_lt t r⟩ k) := by
  show V m c main_arg0 (((cfg0.win 0).blk t).view.emb (ix2 r k)) = _
  rw [V_main_arg0]
  refine congrArg _ (funext fun a => Fin.ext ?_)
  obtain ⟨e0, e1, -⟩ := index_facts t
  match a with
  | ⟨0, _⟩ => show win0_0.index t (0 : Fin 2) * 2048 + 1 * r.val = t.val * 2048 + r.val; omega
  | ⟨1, _⟩ => show win0_0.index t (1 : Fin 2) * 256 + 1 * k.val = k.val; omega

/-- Every point's block of `P` is the whole of `P`. -/
theorem read_P (c : Dev nD) (t : Fin cfg0.N) (q : Fin 64) (k : Fin 256) :
    iblk m c 1 t (ix2 q k) = m ((c : Thread nD τ).loc main_arg2) (ix2 q k) := by
  show V m c main_arg2 (((cfg0.win 1).blk t).view.emb (ix2 q k)) = _
  rw [V_main_arg2]
  refine congrArg _ (funext fun a => Fin.ext ?_)
  obtain ⟨-, -, e2, e3, -⟩ := index_facts t
  match a with
  | ⟨0, _⟩ => show win0_1.index t (0 : Fin 2) * 64 + 1 * q.val = q.val; omega
  | ⟨1, _⟩ => show win0_1.index t (1 : Fin 2) * 256 + 1 * k.val = k.val; omega

/-- Row `r` of point `t`'s block of the flag column is the value of the flag of row `2048·t + r`. -/
theorem read_flag (c : Dev nD) (t : Fin cfg0.N) (r : Fin 2048) :
    iblk m c 2 t (ix2 r (0 : Fin 1))
      = flagVal (m ((c : Thread nD τ).loc main_arg1) (ix1 ⟨t.val * 2048 + r.val, row_lt t r⟩)) := by
  refine Eq.trans ?_ (flag_at m c ⟨t.val * 2048 + r.val, row_lt t r⟩)
  show V m c main_v1 (((cfg0.win 2).blk t).view.emb (ix2 r (0 : Fin 1))) = _
  refine congrArg _ (funext fun a => Fin.ext ?_)
  obtain ⟨-, -, -, -, e4, e5, -⟩ := index_facts t
  match a with
  | ⟨0, _⟩ => show win0_2.index t (0 : Fin 2) * 2048 + 1 * r.val = t.val * 2048 + r.val; omega
  | ⟨1, _⟩ => show win0_2.index t (1 : Fin 2) * 1 + 1 * 0 = 0; omega

/-- Row `r`, column `q` of point `t`'s block of the result array is the array's row `2048·t + r`, column `q`. -/
theorem out_index (t : Fin cfg0.N) (r : Fin 2048) (q : Fin 64) :
    ((cfg0.win 3).blk t).view.emb (ix2 r q) = ix2 ⟨t.val * 2048 + r.val, row_lt t r⟩ q := by
  refine funext fun a => Fin.ext ?_
  obtain ⟨-, -, -, -, -, -, e6, e7⟩ := index_facts t
  match a with
  | ⟨0, _⟩ => show win0_3.index t (0 : Fin 2) * 2048 + 1 * r.val = t.val * 2048 + r.val; omega
  | ⟨1, _⟩ => show win0_3.index t (1 : Fin 2) * 64 + 1 * q.val = q.val; omega

/-- WHAT POINT `t` WRITES BACK is block `t` of the specification's result of the argument arrays. -/
theorem flushed_eq (c : Dev nD) (t : Fin cfg0.N) :
    (dats m 0 c).flushed 3 t = ((cfg0.win 3).blk t).view.read (Elt Ideal)
      (result (m ((c : Thread nD τ).loc main_arg0)) (m ((c : Thread nD τ).loc main_arg1)) (m ((c : Thread nD τ).loc main_arg2))) := by
  rw [Cert.KernelIdeal.Value.flushed3]
  unfold out0_3
  rw [View.canon_unit_zero zero_off]
  simp only [View.ld_unit_zero (S := S2048x256) zero_off, View.ld_unit_zero (S := S64x256) zero_off,
    View.ld_unit_zero (S := S2048x1) zero_off]
  funext y
  obtain ⟨r, q, rfl⟩ : ∃ (r : Fin 2048) (q : Fin 64), y = ix2 r q := ⟨y 0, y 1, eq_ix2 y⟩
  show k0_pay1 (iblk m c 0 t) (iblk m c 1 t) (iblk m c 2 t) (ix2 r q)
    = result _ _ _ (((cfg0.win 3).blk t).view.emb (ix2 r q))
  rw [out_index, result_ix2]
  exact pay_entry _ _ _ _ _ _ r q ⟨t.val * 2048 + r.val, row_lt t r⟩ (fun k => read_X m c t r k)
    (fun k => read_P m c t q k) (read_flag m c t r)

/-- An index of the result array is in point `t`'s block iff each coordinate is in the block's range on its axis. -/
theorem mem_blk (t : Fin cfg0.N) (i : S131072x64.Idx) :
    i ∈ ((cfg0.win 3).blk t).view.set ↔ ∀ a : Fin 2, win0_3.index t a * S2048x64.size a ≤ (i a).val
      ∧ (i a).val < win0_3.index t a * S2048x64.size a + S2048x64.size a := by
  show i ∈ ((View.whole main_v2).slice (win0_3.rect t)).set ↔ _
  rw [View.set_slice_whole, Rect.mem_set_unit]
  exact Iff.rfl

/-- The 64 blocks tile the array: row `i` lies in the block of point `i / 2048`. -/
theorem cover (i : S131072x64.Idx) :
    ∃ t : Fin cfg0.N, (cfg0.win 3).flush t = true ∧ i ∈ ((cfg0.win 3).blk t).view.set := by
  have hi0 : (i 0).val < 131072 := (i 0).isLt
  have hi1 : (i 1).val < 64 := (i 1).isLt
  have hN : cfg0.N = 64 := N_0
  have ht : (i 0).val / 2048 < cfg0.N := by omega
  refine ⟨⟨(i 0).val / 2048, ht⟩, flush0_3 _, ?_⟩
  rw [mem_blk]
  obtain ⟨-, -, -, -, -, -, e6, e7⟩ := index_facts ⟨(i 0).val / 2048, ht⟩
  intro a
  match a with
  | ⟨0, _⟩ =>
    show win0_3.index ⟨(i 0).val / 2048, ht⟩ (0 : Fin 2) * 2048 ≤ (i 0).val
      ∧ (i 0).val < win0_3.index ⟨(i 0).val / 2048, ht⟩ (0 : Fin 2) * 2048 + 2048
    rw [e6]
    show (i 0).val / 2048 * 2048 ≤ (i 0).val ∧ (i 0).val < (i 0).val / 2048 * 2048 + 2048
    omega
  | ⟨1, _⟩ =>
    show win0_3.index ⟨(i 0).val / 2048, ht⟩ (1 : Fin 2) * 64 ≤ (i 1).val
      ∧ (i 1).val < win0_3.index ⟨(i 0).val / 2048, ht⟩ (1 : Fin 2) * 64 + 64
    rw [e7]
    omega

/-- THE ARRAY after the run is the specification's result of the argument arrays. -/
theorem final (c : Dev nD) :
    (dats m 0 c).arrAt 3 cfg0.N
      = result (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel's run, read: the result array ends at the specification's result, the arguments unchanged. -/
theorem run : θ_run defs (onTc (τ := τ) (main (F := Ideal))) ⟨m, fun _ => 0, ρ⟩ fun r => ∀ c : Dev nD,
      r.2.mem ((c : Thread nD τ).loc main_v2)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.ProtoSim.KerValue

end
-- ==== Proof.RefValue.lean ====
/-
  The reference's result, read at row `b` and prototype `q`, is the specification's entry there.

  Read one operation at a time, the reference's last stage at `(b, q)` is
    exp(−((0 + Σₖ X[b,k]·X[b,k]) + (0 + Σₖ P[q,k]·P[q,k]) − 2 · Σₖ X[b,k]·P[q,k])) · select(T[b], [q < 16], [q ≥ 16]),
  each sum an exact sum over the 256 columns, the row statistics carried to `(b, q)` by broadcasts that read row `b`
  (respectively row `q`). Dropping the two zero initial values and recognising the select as the gate gives the entry.
-/
import proofs.«106129_j88596585382464_2_alg».proof.Proof.Gen.ReferenceIdeal.Read
import proofs.«106129_j88596585382464_2_alg».proof.Proof.Spec

noncomputable section

open scoped BigOperators

namespace Cert.ProtoSim.Ref

open Cert.ReferenceIdeal Cert.ReferenceIdeal.Read Idealize.ShloMosaic Idealize.ShloMosaic.ValueIdx

/-- A one-bit word converted to a float is 0 or 1: the flag's value. -/
theorem uitofp_flagVal (t : BitVec 1) : FloatOps.uitofp (F := Ideal) .f32 t = flagVal t := rfl

/-- The reference's last stage is the specification's result, for any argument arrays. -/
theorem stage_eq_result (x0 : (⟨S131072x256, .f32⟩ : BufTy).Contents (Elt Ideal))
    (x1 : (⟨S131072, .i1⟩ : BufTy).Contents (Elt Ideal)) (x2 : (⟨S64x256, .f32⟩ : BufTy).Contents (Elt Ideal)) :
    val_main_v26 (F := Ideal) x0 x1 x2 = result x0 x1 x2 := by
  funext i
  obtain ⟨b, q, rfl⟩ : ∃ (b : Fin 131072) (q : Fin 64), i = ix2 b q := ⟨i 0, i 1, eq_ix2 i⟩
  rw [result_ix2]
  -- every stage at its index, outermost first
  simp only [val_main_v26_apply, val_main_v14_apply, val_main_v13_apply, val_main_v12_apply, val_main_v9_apply,
    val_main_v7_apply, val_main_v2_apply, val_main_v1_apply, val_main_v0_apply, val_main_v8_apply, val_main_v6_apply,
    val_main_v4_apply, val_main_v3_apply, val_main_v11_apply, val_main_v10_apply, val_main_v5_apply, val_main_v25_apply,
    val_main_call0_v0_apply, val_main_v22_apply, val_main_call0_v1_apply, val_main_v23_apply, val_main_v18_apply,
    val_main_v17_apply, val_main_v15_apply, val_main_v16_apply, val_main_call0_v2_apply, val_main_v24_apply,
    val_main_v21_apply, val_main_v20_apply, val_main_v19_apply, val_main_cst_apply, val_main_cst_0_apply,
    val_main_cst_1_apply, val_main_c_apply, val_main_c_2_apply]
  -- the composed index maps: a row statistic at (b, q) is read at row b (of X) or row q (of P), column k
  have e1 : ∀ k : Fin 256, idx_main_v1 (idx_main_v2 (idx_main_v7 (ix2 b q))) k = ix2 b k := fun k =>
    funext fun a => Fin.ext (by match a with | ⟨0, _⟩ => rfl | ⟨1, _⟩ => rfl)
  have e2 : ∀ k : Fin 256, idx_main_v4 (idx_main_v6 (idx_main_v8 (ix2 b q))) k = ix2 q k := fun k =>
    funext fun a => Fin.ext (by match a with | ⟨0, _⟩ => rfl | ⟨1, _⟩ => rfl)
  have e3 : ∀ k : Fin 256, lidx_main_v5 (ix2 b q) k = ix2 b k := fun k =>
    funext fun a => Fin.ext (by match a with | ⟨0, _⟩ => rfl | ⟨1, _⟩ => rfl)
  have e4 : ∀ k : Fin 256, ridx_main_v5 (ix2 b q) k = ix2 q k := fun k =>
    funext fun a => Fin.ext (by match a with | ⟨0, _⟩ => rfl | ⟨1, _⟩ => rfl)
  have e5 : idx_main_v22 (idx_main_call0_v0 (ix2 b q)) = ix1 b :=
    funext fun a => Fin.ext (by match a with | ⟨0, _⟩ => rfl)
  simp only [e1, e2, e3, e4, e5, Ideal.ofBits_def, Ideal.mulf_def, Ideal.addf_def, Ideal.subf_def,
    Ideal.hostUnary_exp_def, Ideal.hostNegf_def, Ideal.negf_def, Ideal.ofBits_zero_f32, zero_add, uitofp_flagVal]
  show _ * Scalar.select (x1 (ix1 b)) (flagVal (IntOp.cmpi .slt (BitVec.ofNat 32 q.val) 16#32))
      (flagVal (IntOp.cmpi .sge (BitVec.ofNat 32 q.val) 16#32)) = _
  rw [gate_of_select]
  rfl

end Cert.ProtoSim.Ref

end
-- ==== Proof.lean ====
/-
  Prototype similarities with a gate: the kernel and its reference compute one function on the extended reals.

  For `X` (131072 × 256), one flag per row `T`, and 64 prototypes `P` (64 × 256), both programs return, at row `b` and
  prototype `q`,
      exp(−((Σₖ X[b,k]² + Σₖ P[q,k]²) − 2 · Σₖ X[b,k]·P[q,k])) · gate(T[b], q),
  the gate being 1 when "the row is flagged" and "q is among the first sixteen prototypes" agree, and 0 otherwise.

  The kernel works on blocks of 2048 rows: per block the two sums of squares by lane reductions, the cross term by a
  matrix product of the block with the transposed prototypes into a zero accumulator, the negation as `0 − d`, and the
  gate by arithmetic on the flag read as a number, `t·a + (1 − t)·(1 − a)` with `a` the 0/1 indicator of the first
  sixteen. The reference takes the same sums over the whole arrays (each from a zero initial value), the cross term by
  one contraction of `X` with `P` over the columns, the negation as such, and the gate by selecting, on the flag, between
  the indicator of the first sixteen and the indicator of the rest. On the extended reals a sum of 256 terms is one value
  whatever the order, adding zero and subtracting from zero are exact, and the two gates agree in each of the four cases
  of (flag, a) — every number there is 0 or 1. Nothing else differs: the same association `(x² + p²) − 2·xp`, the same
  word for 2, the same exponential, the same order of the last product. So no law that needs finite operands is used, and
  the precondition is never opened.

  The frames of the two kernel programs and the kernel's run with its result array named block by block are the
  generated modules'; so are the reference's run and its stages read at an index. The ledger of the idealization is
  empty, so `preserves` holds trivially.
-/
import proofs.«106129_j88596585382464_2_alg».proof.Defs
import proofs.«106129_j88596585382464_2_alg».proof.Proof.Gen.Kernel
import proofs.«106129_j88596585382464_2_alg».proof.Proof.Gen.Kernel.Skeleton
import proofs.«106129_j88596585382464_2_alg».proof.Proof.Gen.Kernel.Launch
import proofs.«106129_j88596585382464_2_alg».proof.Proof.Gen.Kernel.Points
import proofs.«106129_j88596585382464_2_alg».proof.Proof.Gen.Kernel.Frame
import proofs.«106129_j88596585382464_2_alg».proof.Proof.Gen.KernelIdeal
import proofs.«106129_j88596585382464_2_alg».proof.Proof.Gen.KernelIdeal.Skeleton
import proofs.«106129_j88596585382464_2_alg».proof.Proof.Gen.KernelIdeal.Launch
import proofs.«106129_j88596585382464_2_alg».proof.Proof.Gen.KernelIdeal.Points
import proofs.«106129_j88596585382464_2_alg».proof.Proof.Gen.KernelIdeal.Frame
import proofs.«106129_j88596585382464_2_alg».proof.Proof.Gen.ReferenceIdeal
import proofs.«106129_j88596585382464_2_alg».proof.Proof.Gen.KernelIdeal.Value
import proofs.«106129_j88596585382464_2_alg».proof.Proof.Gen.ReferenceIdeal.Run
import proofs.«106129_j88596585382464_2_alg».proof.Proof.Gen.ReferenceIdeal.Read
import proofs.«106129_j88596585382464_2_alg».proof.Proof.Gen.Pre_finite_inputs
import Idealize.ShloMosaic.Adequacy
import Idealize.ShloMosaic.Init

import proofs.«106129_j88596585382464_2_alg».proof.Proof.KernelValue
import proofs.«106129_j88596585382464_2_alg».proof.Proof.RefValue

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both runs end with the result array at the specification's result of
    those arguments: the kernel's by its blocks tiling the array, the reference's by its last stage read at an index. -/
theorem algebraic : Cert.algebraic_KernelIdeal_ReferenceIdeal := by
  intro m ρ m' ρ' _ hagree
  refine ⟨_, Cert.ProtoSim.KerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ProtoSim.Ref.stage_eq_result, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
